-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3x1024x1024 : Shape := ⟨3, ![3, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S8x1024x1024 .f32) (main_arg1 : FVec F S3x1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3x1024x1024 .f32 := Host.absf main_arg1
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  main_v8
-- ==== Kernel.lean ====
abbrev S8x1024x1024 : Shape := ⟨3, ![8, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x1024x1024, .f32⟩
  | .hbm, ⟨1, _⟩ => ⟨S3x1024x1024, .f32⟩
  | .hbm, ⟨2, _⟩ => ⟨S8x1024x1024, .bf16⟩
  | .hbm, ⟨3, _⟩ => ⟨S3x1024x1024, .bf16⟩
  | .hbm, ⟨4, _⟩ => ⟨S8x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S3x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v47 : BitVec 32 := Scalar.muli c0_i32 c256_i32
  v47
def k0_off1 (c0_i32 : BitVec 32) : Fin 2 → Nat :=
  let c256_i32 : BitVec 32 := 256#32
  let v47 : BitVec 32 := Scalar.muli c0_i32 c256_i32
  let v48 : BitVec 32 := v47
  let v49 : Index := Scalar.indexCast v48
  let c0_25 : Index := 0#32
  ![v49.toNat, 0]
def k0_off2 (c0_i32 : BitVec 32) : Fin 2 → Nat :=
  let c0_30 : Index := 0#32
  let c256_i32 : BitVec 32 := 256#32
  let v47 : BitVec 32 := Scalar.muli c0_i32 c256_i32
  let v48 : BitVec 32 := v47
  let v55 : Index := Scalar.indexCast v48
  ![0, v55.toNat]
def k0_off3 (c0_i32 : BitVec 32) : Fin 3 → Nat :=
  let c0_41 : Index := 0#32
  let c256_i32 : BitVec 32 := 256#32
  let v47 : BitVec 32 := Scalar.muli c0_i32 c256_i32
  let v48 : BitVec 32 := v47
  let v76 : Index := Scalar.indexCast v48
  let c0_42 : Index := 0#32
  ![0, v76.toNat, 0]
def k0_mult2 : BitVec 32 :=
  let c1_i32 : BitVec 32 := 1#32
  let c256_i32_43 : BitVec 32 := 256#32
  let v80 : BitVec 32 := Scalar.muli c1_i32 c256_i32_43
  v80
def k0_mult3 : BitVec 32 :=
  let c2_i32 : BitVec 32 := 2#32
  let c256_i32_62 : BitVec 32 := 256#32
  let v113 : BitVec 32 := Scalar.muli c2_i32 c256_i32_62
  v113
def k0_mult4 : BitVec 32 :=
  let c3_i32 : BitVec 32 := 3#32
  let c256_i32_81 : BitVec 32 := 256#32
  let v146 : BitVec 32 := Scalar.muli c3_i32 c256_i32_81
  v146
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S3x1024x1024_S1x1024x1024_2_0_0 : ∀ a, (![2, 0, 0] : Fin 3 → Nat) a + S1x1024x1024.size a ≤ S3x1024x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S3x1024x1024_S1x1024x1024_0_0_0 : ∀ a, (![0, 0, 0] : Fin 3 → Nat) a + S1x1024x1024.size a ≤ S3x1024x1024.size a
  reduces_S1024x1024_S1024 : S1024x1024.Reduces [0] S1024
  shapeCasts_S1024_S1x1024 : S1024.ShapeCasts S1x1024
  broadcasts_S1x1024_S1024x1024 : S1x1024.Broadcasts S1024x1024
  inb_S3x1024x1024_S1x1024x1024_1_0_0 : ∀ a, (![1, 0, 0] : Fin 3 → Nat) a + S1x1024x1024.size a ≤ S3x1024x1024.size a
  h_S256x1024 : 0 < S256x1024.numel
  h_S1024x256 : 0 < S1024x256.numel
  reduces_S256x1024_S256 : S256x1024.Reduces [1] S256
  shapeCasts_S256_S256x1 : S256.ShapeCasts S256x1
  broadcasts_S256x1_S256x1024 : S256x1.Broadcasts S256x1024
  h_S1x256x1024 : 0 < S1x256x1024.numel
  shapeCasts_S1x256x1024_S256x1024 : S1x256x1024.ShapeCasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_1_0_0_n_n_wf : DotDims.WF S256x1024 S1024x1024 S256x1024 [1] [1] [0] [0] [] []
  dot_S1024x256_S1024x1024_S256x1024_0_0_1_1_n_n_wf : DotDims.WF S1024x256 S1024x1024 S256x1024 [0] [0] [1] [1] [] []
  dot_S256x1024_S1024x1024_S256x1024_1_0_0_1_n_n_wf : DotDims.WF S256x1024 S1024x1024 S256x1024 [1] [0] [0] [1] [] []
  hrank0 : 0 < grid0.rank
  k0_mult1_dvd : 256 ∣ k0_mult1.toNat
  k0_off1_inb : ∀ (r : Fin 4), ∀ a, (k0_off1 (BitVec.ofNat 32 r.val)) a + S256x1024.size a ≤ S1024x1024.size a
  k0_off2_inb : ∀ (r : Fin 4), ∀ a, (k0_off2 (BitVec.ofNat 32 r.val)) a + S1024x256.size a ≤ S1024x1024.size a
  k0_off3_inb : ∀ (r : Fin 4), ∀ a, (k0_off3 (BitVec.ofNat 32 r.val)) a + S1x256x1024.size a ≤ S1x1024x1024.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .bf16 = 32 ∨ (Rect.block (s := S8x1024x1024) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x1024x1024.size a
  hwx0_1 : ∀ i : grid0.Coords, EltTy.bits .bf16 = 32 ∨ (Rect.block (s := S3x1024x1024) S3x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S_ : Shape := ⟨0, ![]⟩
abbrev S8x1024 : Shape := ⟨2, ![8, 1024]⟩
abbrev S8x1x1024 : Shape := ⟨3, ![8, 1, 1024]⟩
abbrev S8x1024x1 : Shape := ⟨3, ![8, 1024, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S8x1024x1024, .f32⟩
  | .hbm, ⟨5, _⟩ => ⟨S1x1024x1024, .f32⟩
  | .hbm, ⟨6, _⟩ => ⟨S1024x1024, .f32⟩
  | .hbm, ⟨7, _⟩ => ⟨S8x1024x1024, .f32⟩
  | .hbm, ⟨8, _⟩ => ⟨S1x1024x1024, .f32⟩
  | .hbm, ⟨9, _⟩ => ⟨S1024x1024, .f32⟩
  | .hbm, ⟨10, _⟩ => ⟨S8x1024x1024, .f32⟩
  | .hbm, ⟨11, _⟩ => ⟨S8x1024x1024, .f32⟩
  | .hbm, ⟨12, _⟩ => ⟨S_, .f32⟩
  | .hbm, ⟨13, _⟩ => ⟨S_, .f32⟩
  | .hbm, ⟨14, _⟩ => ⟨S8x1024x1024, .f32⟩
  | .hbm, ⟨15, _⟩ => ⟨S8x1024x1024, .f32⟩
  | .hbm, ⟨16, _⟩ => ⟨S8x1024x1024, .f32⟩
  | .hbm, ⟨17, _⟩ => ⟨S_, .f32⟩
  | .hbm, ⟨18, _⟩ => ⟨S8x1024, .f32⟩
  | .hbm, ⟨19, _⟩ => ⟨S8x1x1024, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1024x1024, .f32⟩
  | .hbm, ⟨25, _⟩ => ⟨S8x1024x1024, .f32⟩
  | .hbm, ⟨26, _⟩ => ⟨S8x1024x1024, .f32⟩
  | .hbm, ⟨27, _⟩ => ⟨S_, .f32⟩
  | .hbm, ⟨28, _⟩ => ⟨S8x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x1x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S_, .f32⟩
  | .hbm, ⟨39, _⟩ => ⟨S8x1024x1024, .f32⟩
  | .hbm, ⟨40, _⟩ => ⟨S8x1024x1024, .f32⟩
  | .hbm, ⟨41, _⟩ => ⟨S_, .f32⟩
  | .hbm, ⟨42, _⟩ => ⟨S8x1024, .f32⟩
  | .hbm, ⟨43, _⟩ => ⟨S_, .f32⟩
  | .hbm, ⟨44, _⟩ => ⟨S8x1024, .f32⟩
  | .hbm, ⟨45, _⟩ => ⟨S8x1024, .f32⟩
  | .hbm, ⟨46, _⟩ => ⟨S8x1024x1, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S_, .f32⟩
  | .hbm, ⟨51, _⟩ => ⟨S8x1024, .f32⟩
  | .hbm, ⟨52, _⟩ => ⟨S8x1024x1, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S8x1024x1024 : S_.BroadcastsInDim S8x1024x1024 (![] : Fin 0 → Fin S8x1024x1024.rank)
  reducesTo_S8x1024x1024_S8x1024_d1 : S8x1024x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_0_01_1_n_n_wf : DotDims.WF S8x1024x1024 S1024x1024 S8x1024x1024 [2] [0] [0, 1] [1] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_1_1_2_2_0_0_wf : DotDims.WF S8x1024x1024 S8x1024x1024 S8x1024x1024 [1] [1] [2] [2] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_1_1_2_2_0_0 : DotDims S8x1024x1024 S8x1024x1024 S8x1024x1024 where
  lhsContracting := [1]
  rhsContracting := [1]
  lhsNonContracting := [2]
  rhsNonContracting := [2]
  lhsBatch := [0]
  rhsBatch := [0]
  wf := dot_S8x1024x1024_S8x1024x1024_S8x1024x1024_1_1_2_2_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.Spec.lean ====
/-
  What both programs compute, index by index, on the extended reals: single-head attention whose scores blend the scaled
  dot product of queries and keys with their cosine taken along the sequence axis.

  For one batch entry, `X` is its [1024 tokens, 1024 features] input and `W0`, `W1`, `W2` the three weight matrices.
    proj X W        the projection: (s, e) ↦ ∑_d X[s,d]·W[d,e]            (queries, keys, values)
    colUnit P       each COLUMN of P scaled to unit length along the sequence axis, the squared length floored at ε:
                    (s, e) ↦ P[s,e] · rsqrt (max (∑_u P[u,e]²) ε)
    score Q K       (s, t) ↦ ((∑_e Q[s,e]·K[t,e]) · 1/32 + ∑_u colUnit Q [u,s] · colUnit K [u,t]) · 1/2
    rowMax f        the maximum of a row from −∞ (taken twice against −∞, as both programs do)
    expRow f        t ↦ exp (f t − rowMax f)
    softRow f       the softmax of a row: expRow f t over the sum of the row's expRow
    soft S          the softmax of each row of S
    head            (s, e) ↦ ∑_t soft(score Q K)[s,t] · V[t,e]
  The literals stay as the patterns both programs spell; none of them is evaluated here.
-/
import Idealize.ShloMosaic.PureOps.Ideal
import Idealize.ShloMosaic.Lib.ValueIdx

noncomputable section

namespace Cert.Attn

open Idealize.ShloMosaic Idealize.ShloMosaic.ValueIdx

/-- A [1024, 1024] matrix of extended reals, by coordinates. -/
abbrev Mat : Type := Fin 1024 → Fin 1024 → EReal

/-- ε, the floor under a squared column length. -/
abbrev eps : EReal := Ideal.ofBits .f32 0x2B8CBCCC#32
/-- −∞, from which a row maximum starts. -/
abbrev negInf : EReal := Ideal.ofBits .f32 0xFF800000#32
/-- 1/2, the weight of the blend. -/
abbrev half : EReal := Ideal.ofBits .f32 0x3F000000#32
/-- 1/32 = 1/√1024, the dot-product scale, as the kernel spells it. -/
abbrev inv32 : EReal := Ideal.ofBits .f32 0x3D000000#32

/-- The projection of the tokens `X` by the weights `W`. -/
def proj (X W : Mat) : Mat := fun s e => ∑ d : Fin 1024, X s d * W d e

/-- The squared length of column `e` of `P`, along the sequence axis. -/
def colSq (P : Mat) (e : Fin 1024) : EReal := ∑ u : Fin 1024, P u e * P u e

/-- `P` with each column scaled to unit length along the sequence axis (squared length floored at ε). -/
def colUnit (P : Mat) : Mat := fun s e => P s e * Ideal.rsqrt (max (colSq P e) eps)

/-- The scaled dot product of query row `s` and key row `t`. -/
def dotScore (Q K : Mat) : Mat := fun s t => (∑ e : Fin 1024, Q s e * K t e) * inv32

/-- The cosine score: unit columns `s` of the queries and `t` of the keys, contracted along the sequence axis. -/
def cosScore (Q K : Mat) : Mat := fun s t => ∑ u : Fin 1024, colUnit Q u s * colUnit K u t

/-- The blended score. -/
def score (Q K : Mat) : Mat := fun s t => (dotScore Q K s t + cosScore Q K s t) * half

/-- The maximum of a row, from −∞. -/
def rowMax (f : Fin 1024 → EReal) : EReal := max negInf ((Finset.univ : Finset (Fin 1024)).fold max negInf f)

/-- The exponentials of a row's entries less the row's maximum. -/
def expRow (f : Fin 1024 → EReal) (t : Fin 1024) : EReal := Ideal.exp (f t - rowMax f)

/-- The softmax of one row. -/
def softRow (f : Fin 1024 → EReal) (t : Fin 1024) : EReal := Ideal.div (expRow f t) (∑ t' : Fin 1024, expRow f t')

/-- The shifted exponentials of each row. -/
def expShift (S : Mat) : Mat := fun s => expRow (S s)

/-- The softmax of each row. -/
def soft (S : Mat) : Mat := fun s => softRow (S s)

/-- Attention weights applied to the values. -/
def mix (A V : Mat) : Mat := fun s e => ∑ t : Fin 1024, A s t * V t e

/-- One batch entry's output. -/
def head (X W0 W1 W2 : Mat) : Mat := mix (soft (score (proj X W0) (proj X W1))) (proj X W2)

/-- Batch entry `b` of the input array, as a matrix. -/
def slab8 (x : (⟨3, ![8, 1024, 1024]⟩ : Shape).Idx → EReal) (b : Fin 8) : Mat := fun s d => x (ix3 b s d)

/-- Weight matrix `j` of the stacked weights, as a matrix. -/
def slab3 (w : (⟨3, ![3, 1024, 1024]⟩ : Shape).Idx → EReal) (j : Fin 3) : Mat := fun d e => w (ix3 j d e)

/-- The whole result array as one function of the two argument arrays. -/
def attention (x : (⟨3, ![8, 1024, 1024]⟩ : Shape).Idx → EReal) (w : (⟨3, ![3, 1024, 1024]⟩ : Shape).Idx → EReal) :
    (⟨3, ![8, 1024, 1024]⟩ : Shape).Idx → EReal :=
  fun i => head (slab8 x (i 0)) (slab3 w 0) (slab3 w 1) (slab3 w 2) (i 1) (i 2)

theorem attention_ix3 (x : (⟨3, ![8, 1024, 1024]⟩ : Shape).Idx → EReal) (w : (⟨3, ![3, 1024, 1024]⟩ : Shape).Idx → EReal)
    (b : Fin 8) (s e : Fin 1024) :
    attention x w (ix3 b s e) = head (slab8 x b) (slab3 w 0) (slab3 w 1) (slab3 w 2) s e := rfl

end Cert.Attn

end
-- ==== Proof.Consts.lean ====
/-
  The two float constants by which the kernel and the reference scale the dot-product scores. The reference divides the
  scores by the square root of the feature count 1024, which is 32; the kernel multiplies them by the float 2⁻⁵ = 1/32.
  On the extended reals the quotient by 32 and the product with 1/32 are the same number, at the infinities too.
-/
import Idealize.ShloMosaic.PureOps.Ideal

noncomputable section

namespace Cert.Attn

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `0.03125` denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- Dividing by the square root of 1024 is multiplying by 1/32, on every extended real. -/
theorem div_sqrt_1024 (x : EReal) :
    Ideal.div x (Ideal.sqrt (Ideal.ofBits .f32 0x44800000#32)) = x * Ideal.ofBits .f32 0x3D000000#32 := by
  rw [ofBits_1024, sqrt_1024, ofBits_inv32, Ideal.div_coe (by norm_num : (32 : ℝ) ≠ 0)]

end Cert.Attn

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.RefValue.lean ====
/-
  The reference, read stage by stage at an index written by coordinates: each stage of its program is the matching
  function of the specification — the three projections, the squared column lengths, the unit columns, the scaled dot
  product (the quotient by the square root of 1024 is the product with 1/32), the cosine, the blend, the row maximum, the
  shifted exponentials, their row sums, the softmax, and the weighted sum of the values. So its result array is
  `attention` of its two arguments.
-/
import proofs.«129384_j57990648430953_2_alg».proof.Proof.Gen.ReferenceIdeal.Read
import proofs.«129384_j57990648430953_2_alg».proof.Proof.Spec
import proofs.«129384_j57990648430953_2_alg».proof.Proof.Consts
import proofs.«129384_j57990648430953_2_alg».proof.Proof.LibKeepdims

noncomputable section

namespace Cert.Attn.Ref

open Cert.ReferenceIdeal Cert.ReferenceIdeal.Gen Cert.ReferenceIdeal.Read
open Idealize.ShloMosaic Idealize.ShloMosaic.ValueIdx
open Cert.Attn

variable (x0 : (⟨S8x1024x1024, .f32⟩ : BufTy).Contents (Elt Ideal)) (x1 : (⟨S3x1024x1024, .f32⟩ : BufTy).Contents (Elt Ideal))

/-- The queries, keys and values of batch entry `b`. -/
abbrev Q (b : Fin 8) : Mat := proj (slab8 x0 b) (slab3 x1 0)
abbrev K (b : Fin 8) : Mat := proj (slab8 x0 b) (slab3 x1 1)
abbrev V (b : Fin 8) : Mat := proj (slab8 x0 b) (slab3 x1 2)

/-! ## The projections -/

theorem v2_at (b : Fin 8) (s e : Fin 1024) : val_main_v2 (F := Ideal) x0 x1 (ix3 b s e) = Q x0 x1 b s e := by
  rw [val_main_v2_apply]
  refine Finset.sum_congr rfl fun k _ => ?_
  rw [val_main_v1_apply, val_main_v0_apply]
  have el : lidx_main_v2 (ix3 b s e) k = ix3 b s k :=
    funext fun a => Fin.ext (by match a with | ⟨0, _⟩ => rfl | ⟨1, _⟩ => rfl | ⟨2, _⟩ => rfl)
  have er : idx_main_v0 (idx_main_v1 (ridx_main_v2 (ix3 b s e) k)) = ix3 (0 : Fin 3) k e :=
    funext fun a => Fin.ext (by
      have hk := k.isLt; have he := e.isLt
      match a with
      | ⟨0, _⟩ => rfl
      | ⟨1, _⟩ => show (k.val * 1024 + e.val) / 1024 % 1024 = k.val; omega
      | ⟨2, _⟩ => show (k.val * 1024 + e.val) % 1024 = e.val; omega)
  rw [el, er]; rfl

theorem v5_at (b : Fin 8) (s e : Fin 1024) : val_main_v5 (F := Ideal) x0 x1 (ix3 b s e) = K x0 x1 b s e := by
  rw [val_main_v5_apply]
  refine Finset.sum_congr rfl fun k _ => ?_
  rw [val_main_v4_apply, val_main_v3_apply]
  have el : lidx_main_v5 (ix3 b s e) k = ix3 b s k :=
    funext fun a => Fin.ext (by match a with | ⟨0, _⟩ => rfl | ⟨1, _⟩ => rfl | ⟨2, _⟩ => rfl)
  have er : idx_main_v3 (idx_main_v4 (ridx_main_v5 (ix3 b s e) k)) = ix3 (1 : Fin 3) k e :=
    funext fun a => Fin.ext (by
      have hk := k.isLt; have he := e.isLt
      match a with
      | ⟨0, _⟩ => rfl
      | ⟨1, _⟩ => show (k.val * 1024 + e.val) / 1024 % 1024 = k.val; omega
      | ⟨2, _⟩ => show (k.val * 1024 + e.val) % 1024 = e.val; omega)
  rw [el, er]; rfl

theorem v8_at (b : Fin 8) (s e : Fin 1024) : val_main_v8 (F := Ideal) x0 x1 (ix3 b s e) = V x0 x1 b s e := by
  rw [val_main_v8_apply]
  refine Finset.sum_congr rfl fun k _ => ?_
  rw [val_main_v7_apply, val_main_v6_apply]
  have el : lidx_main_v8 (ix3 b s e) k = ix3 b s k :=
    funext fun a => Fin.ext (by match a with | ⟨0, _⟩ => rfl | ⟨1, _⟩ => rfl | ⟨2, _⟩ => rfl)
  have er : idx_main_v6 (idx_main_v7 (ridx_main_v8 (ix3 b s e) k)) = ix3 (2 : Fin 3) k e :=
    funext fun a => Fin.ext (by
      have hk := k.isLt; have he := e.isLt
      match a with
      | ⟨0, _⟩ => rfl
      | ⟨1, _⟩ => show (k.val * 1024 + e.val) / 1024 % 1024 = k.val; omega
      | ⟨2, _⟩ => show (k.val * 1024 + e.val) % 1024 = e.val; omega)
  rw [el, er]; rfl

/-! ## Unit columns -/

theorem v14_at (b : Fin 8) (e : Fin 1024) : val_main_v14 (F := Ideal) x0 x1 (ix2 b e) = colSq (Q x0 x1 b) e := by
  rw [val_main_v14_apply, val_main_cst_0_apply]
  show Ideal.ofBits .f32 0x00000000#32 + _ = _
  rw [Ideal.ofBits_zero_f32, zero_add]
  refine Finset.sum_congr rfl fun k _ => ?_
  have ei : idx_main_v14 (ix2 b e) k = ix3 b k e :=
    funext fun a => Fin.ext (by match a with | ⟨0, _⟩ => rfl | ⟨1, _⟩ => rfl | ⟨2, _⟩ => rfl)
  rw [val_main_v13_apply, ei, v2_at]; rfl

theorem v22_at (b : Fin 8) (e : Fin 1024) : val_main_v22 (F := Ideal) x0 x1 (ix2 b e) = colSq (K x0 x1 b) e := by
  rw [val_main_v22_apply, val_main_cst_2_apply]
  show Ideal.ofBits .f32 0x00000000#32 + _ = _
  rw [Ideal.ofBits_zero_f32, zero_add]
  refine Finset.sum_congr rfl fun k _ => ?_
  have ei : idx_main_v22 (ix2 b e) k = ix3 b k e :=
    funext fun a => Fin.ext (by match a with | ⟨0, _⟩ => rfl | ⟨1, _⟩ => rfl | ⟨2, _⟩ => rfl)
  rw [val_main_v21_apply, ei, v5_at]; rfl

theorem v20_at (b : Fin 8) (s e : Fin 1024) : val_main_v20 (F := Ideal) x0 x1 (ix3 b s e) = colUnit (Q x0 x1 b) s e := by
  rw [val_main_v20_apply, val_main_v19_apply, val_main_v18_apply, val_main_v17_apply, val_main_v15_apply, val_main_v16_apply,
    val_main_cst_1_apply]
  have ei : idx_main_v15 (idx_main_v19 (ix3 b s e)) = ix2 b e :=
    funext fun a => Fin.ext (by match a with | ⟨0, _⟩ => rfl | ⟨1, _⟩ => rfl)
  rw [ei, v14_at, v2_at]; rfl

theorem v28_at (b : Fin 8) (s e : Fin 1024) : val_main_v28 (F := Ideal) x0 x1 (ix3 b s e) = colUnit (K x0 x1 b) s e := by
  rw [val_main_v28_apply, val_main_v27_apply, val_main_v26_apply, val_main_v25_apply, val_main_v23_apply, val_main_v24_apply,
    val_main_cst_3_apply]
  have ei : idx_main_v23 (idx_main_v27 (ix3 b s e)) = ix2 b e :=
    funext fun a => Fin.ext (by match a with | ⟨0, _⟩ => rfl | ⟨1, _⟩ => rfl)
  rw [ei, v22_at, v5_at]; rfl

/-! ## The scores -/

theorem v12_at (b : Fin 8) (s t : Fin 1024) : val_main_v12 (F := Ideal) x0 x1 (ix3 b s t) = dotScore (Q x0 x1 b) (K x0 x1 b) s t := by
  rw [val_main_v12_apply, val_main_v11_apply, val_main_v10_apply, val_main_cst_apply, val_main_v9_apply]
  show Ideal.div _ (Ideal.sqrt (Ideal.ofBits .f32 0x44800000#32)) = _
  rw [div_sqrt_1024]
  refine congrArg (· * inv32) (Finset.sum_congr rfl fun k _ => ?_)
  have el : lidx_main_v9 (ix3 b s t) k = ix3 b s k :=
    funext fun a => Fin.ext (by match a with | ⟨0, _⟩ => rfl | ⟨1, _⟩ => rfl | ⟨2, _⟩ => rfl)
  have er : ridx_main_v9 (ix3 b s t) k = ix3 b t k :=
    funext fun a => Fin.ext (by match a with | ⟨0, _⟩ => rfl | ⟨1, _⟩ => rfl | ⟨2, _⟩ => rfl)
  rw [el, er, v2_at, v5_at]

theorem v29_at (b : Fin 8) (s t : Fin 1024) : val_main_v29 (F := Ideal) x0 x1 (ix3 b s t) = cosScore (Q x0 x1 b) (K x0 x1 b) s t := by
  rw [val_main_v29_apply]
  refine Finset.sum_congr rfl fun k _ => ?_
  have el : lidx_main_v29 (ix3 b s t) k = ix3 b k s :=
    funext fun a => Fin.ext (by match a with | ⟨0, _⟩ => rfl | ⟨1, _⟩ => rfl | ⟨2, _⟩ => rfl)
  have er : ridx_main_v29 (ix3 b s t) k = ix3 b k t :=
    funext fun a => Fin.ext (by match a with | ⟨0, _⟩ => rfl | ⟨1, _⟩ => rfl | ⟨2, _⟩ => rfl)
  rw [el, er, v20_at, v28_at]

theorem v32_at (b : Fin 8) (s t : Fin 1024) : val_main_v32 (F := Ideal) x0 x1 (ix3 b s t) = score (Q x0 x1 b) (K x0 x1 b) s t := by
  rw [val_main_v32_apply, val_main_v30_apply, val_main_v31_apply, val_main_cst_4_apply, v12_at, v29_at]; rfl

/-! ## The softmax -/

/-- The host's maximum over the last axis of an `[a, b, c]` array, at `(p, q)`: the fold of `max`, from the initial value,
    over the entries `(p, q, k)`. -/
theorem hostMax_last3 {a b c : ℕ} {u : Shape} (y : (⟨3, ![a, b, c]⟩ : Shape).Idx → EReal) (init : u.Idx → EReal)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce (FloatOps.maximumf (F := Ideal) (φ := .f32)) y init h' hu (ix2 p q)
      = (Finset.univ : Finset (Fin c)).fold max (init (Shape.Idx.first hu)) (fun k : Fin c => y (ix3 p q k)) := by
  refine (Host.reduce_eq_fold_single (FloatOps.maximumf (F := Ideal) (φ := .f32)) y init h' h hu (ix2 p q)).trans ?_
  have hf : (y ∘ h.lift (ix2 p q)) = fun k : Fin c => y (ix3 p q k) :=
    funext fun k => congrArg y (Cert.LibKeepdims.lift_last3 h p q k)
  exact congrArg (fun f => Finset.fold max (init (Shape.Idx.first hu)) f (Finset.univ : Finset (Fin c))) hf

theorem v33_at (b : Fin 8) (s : Fin 1024) :
    val_main_v33 (F := Ideal) x0 x1 (ix2 b s)
      = (Finset.univ : Finset (Fin 1024)).fold max negInf (score (Q x0 x1 b) (K x0 x1 b) s) := by
  have hy : (fun t : Fin 1024 => val_main_v32 (F := Ideal) x0 x1 (ix3 b s t)) = score (Q x0 x1 b) (K x0 x1 b) s :=
    funext fun t => v32_at x0 x1 b s t
  rw [← hy]
  unfold val_main_v33
  generalize val_main_v32 (F := Ideal) x0 x1 = y
  exact hostMax_last3 y _ reducesTo_S8x1024x1024_S8x1024_d2 (by decide) h_S_ b s

theorem v35_at (b : Fin 8) (s : Fin 1024) :
    val_main_v35 (F := Ideal) x0 x1 (ix2 b s) = rowMax (score (Q x0 x1 b) (K x0 x1 b) s) := by
  rw [val_main_v35_apply, val_main_v34_apply, val_main_cst_6_apply, v33_at]; rfl

theorem v39_at (b : Fin 8) (s t : Fin 1024) :
    val_main_v39 (F := Ideal) x0 x1 (ix3 b s t) = expShift (score (Q x0 x1 b) (K x0 x1 b)) s t := by
  rw [val_main_v39_apply, val_main_v38_apply, val_main_v37_apply, val_main_v36_apply]
  have ei : idx_main_v36 (idx_main_v37 (ix3 b s t)) = ix2 b s :=
    funext fun a => Fin.ext (by match a with | ⟨0, _⟩ => rfl | ⟨1, _⟩ => rfl)
  rw [ei, v35_at, v32_at]; rfl

theorem v40_at (b : Fin 8) (s : Fin 1024) :
    val_main_v40 (F := Ideal) x0 x1 (ix2 b s) = ∑ t : Fin 1024, expShift (score (Q x0 x1 b) (K x0 x1 b)) s t := by
  rw [val_main_v40_apply, val_main_cst_7_apply]
  show Ideal.ofBits .f32 0x00000000#32 + _ = _
  rw [Ideal.ofBits_zero_f32, zero_add]
  refine Finset.sum_congr rfl fun k _ => ?_
  have ei : idx_main_v40 (ix2 b s) k = ix3 b s k :=
    funext fun a => Fin.ext (by match a with | ⟨0, _⟩ => rfl | ⟨1, _⟩ => rfl | ⟨2, _⟩ => rfl)
  rw [ei, v39_at]

theorem v43_at (b : Fin 8) (s t : Fin 1024) :
    val_main_v43 (F := Ideal) x0 x1 (ix3 b s t) = soft (score (Q x0 x1 b) (K x0 x1 b)) s t := by
  rw [val_main_v43_apply, val_main_v42_apply, val_main_v41_apply]
  have ei : idx_main_v41 (idx_main_v42 (ix3 b s t)) = ix2 b s :=
    funext fun a => Fin.ext (by match a with | ⟨0, _⟩ => rfl | ⟨1, _⟩ => rfl)
  rw [ei, v40_at, v39_at]; rfl

/-! ## The result -/

theorem v44_at (b : Fin 8) (s e : Fin 1024) :
    val_main_v44 (F := Ideal) x0 x1 (ix3 b s e) = head (slab8 x0 b) (slab3 x1 0) (slab3 x1 1) (slab3 x1 2) s e := by
  rw [val_main_v44_apply]
  unfold head mix
  refine Finset.sum_congr rfl fun k _ => ?_
  have el : lidx_main_v44 (ix3 b s e) k = ix3 b s k :=
    funext fun a => Fin.ext (by match a with | ⟨0, _⟩ => rfl | ⟨1, _⟩ => rfl | ⟨2, _⟩ => rfl)
  have er : ridx_main_v44 (ix3 b s e) k = ix3 b k e :=
    funext fun a => Fin.ext (by match a with | ⟨0, _⟩ => rfl | ⟨1, _⟩ => rfl | ⟨2, _⟩ => rfl)
  rw [el, er, v43_at, v8_at]

/-- The reference's result array is the attention function of its two arguments. -/
theorem result_eq : val_main_v44 (F := Ideal) x0 x1 = attention x0 x1 := by
  funext i
  obtain ⟨b, s, e, rfl⟩ : ∃ (b : Fin 8) (s e : Fin 1024), i = ix3 b s e := ⟨i 0, i 1, i 2, eq_ix3 i⟩
  rw [v44_at]; rfl

end Cert.Attn.Ref

end
-- ==== Proof.KernMatmul.lean ====
/-
  The kernel's four matrix products into a zero accumulator, read at an output index on the extended reals: each is the
  sum over the contracted coordinate of the products of the two operands' entries — rows by columns for the projections
  and for the weights applied to the values, rows by rows for the dot-product scores, columns by columns for the cosine.
-/
import proofs.«129384_j57990648430953_2_alg».proof.Proof.Gen.KernelIdeal
import Idealize.ShloMosaic.Lib.ValueIdx
import Idealize.ShloMosaic.PureOps.Ideal.Laws

noncomputable section

namespace Cert.Attn.Kern

open Cert.KernelIdeal Cert.KernelIdeal.Gen
open Idealize.ShloMosaic Idealize.ShloMosaic.ValueIdx

theorem mm_rows_cols_lhs (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem mm_rows_cols_rhs (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- [1024, 1024] by [1024, 1024], the left operand's columns against the right operand's rows. -/
theorem mm_rows_cols (A : FVec Ideal S1024x1024 .bf16) (B : FVec Ideal S1024x1024 .bf16) (r : Fin 1024) (c : Fin 1024) :
    matmul dot_S1024x1024_S1024x1024_S1024x1024_1_0_0_1_n_n none A B (constant (F := Ideal) S1024x1024 .f32 0x00000000#32) (ix2 r c)
      = ∑ k : Fin 1024, A (ix2 r k) * B (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k :=
    funext fun a => Fin.ext (by
      match a with
      | ⟨1, _⟩ => exact (dot_S1024x1024_S1024x1024_S1024x1024_1_0_0_1_n_n.lhsIdx_val_of_single rfl _ _).trans hk
      | ⟨0, _⟩ => exact mm_rows_cols_lhs _ _)
  have er : dot_S1024x1024_S1024x1024_S1024x1024_1_0_0_1_n_n.rhsIdx (ix2 r c) ((contrEquiv1 dot_S1024x1024_S1024x1024_S1024x1024_1_0_0_1_n_n 1024 rfl rfl).symm k) = ix2 k c :=
    funext fun a => Fin.ext (by
      match a with
      | ⟨0, _⟩ => exact (dot_S1024x1024_S1024x1024_S1024x1024_1_0_0_1_n_n.rhsIdx_val_of_single rfl _ _).trans hk
      | ⟨1, _⟩ => exact mm_rows_cols_rhs _ _)
  rw [el, er]

theorem mm_rows_rows_lhs (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl

theorem mm_rows_rows_rhs (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

/-- [256, 1024] by [1024, 1024], both contracted on their last axis: row `r` of the left against row `c` of the right. -/
theorem mm_rows_rows (A : FVec Ideal S256x1024 .bf16) (B : FVec Ideal S1024x1024 .bf16) (r : Fin 256) (c : Fin 1024) :
    matmul dot_S256x1024_S1024x1024_S256x1024_1_1_0_0_n_n none A B (constant (F := Ideal) S256x1024 .f32 0x00000000#32) (ix2 r c)
      = ∑ k : Fin 1024, A (ix2 r k) * B (ix2 c k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r c) ((contrEquiv1 dot_S256x1024_S1024x1024_S256x1024_1_1_0_0_n_n 1024 rfl rfl).symm k) = ix2 r k :=
    funext fun a => Fin.ext (by
      match a with
      | ⟨1, _⟩ => exact (dot_S256x1024_S1024x1024_S256x1024_1_1_0_0_n_n.lhsIdx_val_of_single rfl _ _).trans hk
      | ⟨0, _⟩ => exact mm_rows_rows_lhs _ _)
  have er : dot_S256x1024_S1024x1024_S256x1024_1_1_0_0_n_n.rhsIdx (ix2 r c) ((contrEquiv1 dot_S256x1024_S1024x1024_S256x1024_1_1_0_0_n_n 1024 rfl rfl).symm k) = ix2 c k :=
    funext fun a => Fin.ext (by
      match a with
      | ⟨1, _⟩ => exact (dot_S256x1024_S1024x1024_S256x1024_1_1_0_0_n_n.rhsIdx_val_of_single rfl _ _).trans hk
      | ⟨0, _⟩ => exact mm_rows_rows_rhs _ _)
  rw [el, er]

theorem mm_cols_cols_lhs (i : S256x1024.Idx) (q : dot_S1024x256_S1024x1024_S256x1024_0_0_1_1_n_n.contr.Idx) :
    (dot_S1024x256_S1024x1024_S256x1024_0_0_1_1_n_n.lhsIdx i q 1).val = (i 0).val := by
  unfold DotDims.lhsIdx
  rw [dif_neg (show ¬(1 : Fin S1024x256.rank) ∈ dot_S1024x256_S1024x1024_S256x1024_0_0_1_1_n_n.lhsBatch by decide),
    dif_pos (show (1 : Fin S1024x256.rank) ∈ dot_S1024x256_S1024x1024_S256x1024_0_0_1_1_n_n.lhsNonContracting by decide)]
  rfl

theorem mm_cols_cols_rhs (i : S256x1024.Idx) (q : dot_S1024x256_S1024x1024_S256x1024_0_0_1_1_n_n.contr.Idx) :
    (dot_S1024x256_S1024x1024_S256x1024_0_0_1_1_n_n.rhsIdx i q 1).val = (i 1).val := by
  unfold DotDims.rhsIdx
  rw [dif_neg (show ¬(1 : Fin S1024x1024.rank) ∈ dot_S1024x256_S1024x1024_S256x1024_0_0_1_1_n_n.rhsBatch by decide),
    dif_pos (show (1 : Fin S1024x1024.rank) ∈ dot_S1024x256_S1024x1024_S256x1024_0_0_1_1_n_n.rhsNonContracting by decide)]
  rfl

/-- [1024, 256] by [1024, 1024], both contracted on their first axis: column `r` of the left against column `c` of the right. -/
theorem mm_cols_cols (A : FVec Ideal S1024x256 .bf16) (B : FVec Ideal S1024x1024 .bf16) (r : Fin 256) (c : Fin 1024) :
    matmul dot_S1024x256_S1024x1024_S256x1024_0_0_1_1_n_n none A B (constant (F := Ideal) S256x1024 .f32 0x00000000#32) (ix2 r c)
      = ∑ k : Fin 1024, A (ix2 k r) * B (ix2 k c) := by
  simp only [matmul]
  rw [Ideal.matmul_constant_zero_apply, ← Equiv.sum_comp (contrEquiv1 dot_S1024x256_S1024x1024_S256x1024_0_0_1_1_n_n 1024 rfl rfl).symm]
  refine Finset.sum_congr rfl fun k _ => ?_
  have hk := contrEquiv1_symm_val dot_S1024x256_S1024x1024_S256x1024_0_0_1_1_n_n 1024 rfl rfl k
  have el : dot_S1024x256_S1024x1024_S256x1024_0_0_1_1_n_n.lhsIdx (ix2 r c) ((contrEquiv1 dot_S1024x256_S1024x1024_S256x1024_0_0_1_1_n_n 1024 rfl rfl).symm k) = ix2 k r :=
    funext fun a => Fin.ext (by
      match a with
      | ⟨0, _⟩ => exact (dot_S1024x256_S1024x1024_S256x1024_0_0_1_1_n_n.lhsIdx_val_of_single rfl _ _).trans hk
      | ⟨1, _⟩ => exact mm_cols_cols_lhs _ _)
  have er : dot_S1024x256_S1024x1024_S256x1024_0_0_1_1_n_n.rhsIdx (ix2 r c) ((contrEquiv1 dot_S1024x256_S1024x1024_S256x1024_0_0_1_1_n_n 1024 rfl rfl).symm k) = ix2 k c :=
    funext fun a => Fin.ext (by
      match a with
      | ⟨0, _⟩ => exact (dot_S1024x256_S1024x1024_S256x1024_0_0_1_1_n_n.rhsIdx_val_of_single rfl _ _).trans hk
      | ⟨1, _⟩ => exact mm_cols_cols_rhs _ _)
  rw [el, er]

theorem mm_tile_cols_lhs (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem mm_tile_cols_rhs (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- [256, 1024] by [1024, 1024], the left operand's columns against the right operand's rows. -/
theorem mm_tile_cols (A : FVec Ideal S256x1024 .bf16) (B : FVec Ideal S1024x1024 .bf16) (r : Fin 256) (c : Fin 1024) :
    matmul dot_S256x1024_S1024x1024_S256x1024_1_0_0_1_n_n none A B (constant (F := Ideal) S256x1024 .f32 0x00000000#32) (ix2 r c)
      = ∑ k : Fin 1024, A (ix2 r k) * B (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k :=
    funext fun a => Fin.ext (by
      match a with
      | ⟨1, _⟩ => exact (dot_S256x1024_S1024x1024_S256x1024_1_0_0_1_n_n.lhsIdx_val_of_single rfl _ _).trans hk
      | ⟨0, _⟩ => exact mm_tile_cols_lhs _ _)
  have er : dot_S256x1024_S1024x1024_S256x1024_1_0_0_1_n_n.rhsIdx (ix2 r c) ((contrEquiv1 dot_S256x1024_S1024x1024_S256x1024_1_0_0_1_n_n 1024 rfl rfl).symm k) = ix2 k c :=
    funext fun a => Fin.ext (by
      match a with
      | ⟨0, _⟩ => exact (dot_S256x1024_S1024x1024_S256x1024_1_0_0_1_n_n.rhsIdx_val_of_single rfl _ _).trans hk
      | ⟨1, _⟩ => exact mm_tile_cols_rhs _ _)
  rw [el, er]

end Cert.Attn.Kern

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.KernTile.lean ====
/-
  One tile of the kernel's score, softmax and value stage — 256 query rows at a time — as ONE term over its five
  loads: the tile's 256 rows of the queries, all the keys, the tile's 256 columns of the unit-column queries, all the
  unit-column keys, and the values. The body computes four such tiles, each spelt out in its own payloads; all four are
  this term. Read at an index on the extended reals the tile is the softmax of the tile's blended score rows applied
  to the values.
-/
import proofs.«129384_j57990648430953_2_alg».proof.Proof.Gen.KernelIdeal.Skeleton
import proofs.«129384_j57990648430953_2_alg».proof.Proof.KernMatmul
import proofs.«129384_j57990648430953_2_alg».proof.Proof.Spec
import proofs.«129384_j57990648430953_2_alg».proof.Proof.LibColumn
import proofs.«129384_j57990648430953_2_alg».proof.Proof.LibKeepdims

noncomputable section

namespace Cert.Attn.Kern

open Cert.KernelIdeal Cert.KernelIdeal.Gen
open Idealize.ShloMosaic Idealize.ShloMosaic.ValueIdx
open Cert.Attn

variable {F : FTy → Type} [FloatOps F]

/-- The blended scores of a tile: the tile's query rows against every key row, scaled, plus the tile's unit query
    columns against every unit key column, halved. -/
def tileScore (wq : Vec F S256x1024 .bf16) (wk : Vec F S1024x1024 .bf16) (nq : Vec F S1024x256 .bf16)
    (nk : Vec F S1024x1024 .bf16) : FVec F S256x1024 .f32 :=
  mulf
    (addf
      (mulf (matmul dot_S256x1024_S1024x1024_S256x1024_1_1_0_0_n_n none wq wk (constant S256x1024 .f32 0x00000000#32))
        (broadcast S256x1024 (Scalar.ofBits .f32 0x3D000000#32)))
      (matmul dot_S1024x256_S1024x1024_S256x1024_0_0_1_1_n_n none nq nk (constant S256x1024 .f32 0x00000000#32)))
    (broadcast S256x1024 (Scalar.ofBits .f32 0x3F000000#32))

/-- Each score less its row's maximum, exponentiated. -/
def tileExp (sc : FVec F S256x1024 .f32) : FVec F S256x1024 .f32 :=
  exp (subf sc
    (broadcastTo S256x1024
      (shapeCast S256x1
        (maximumf (broadcast S256 (Scalar.ofBits .f32 0xFF800000#32))
          (multiReduction .maximumf [1] S256 sc 0xFF800000#32 reduces_S256x1024_S256 (.inl rfl) rfl))
        shapeCasts_S256_S256x1)
      broadcasts_S256x1_S256x1024))

/-- The sum of each row of exponentials. -/
def tileSum (ex : FVec F S256x1024 .f32) : FVec F S256 .f32 :=
  multiReduction .add [1] S256 ex 0x00000000#32 reduces_S256x1024_S256 (.inl rfl) rfl

/-- The exponentials over their row sums: the tile's attention weights. -/
def tileSoft (ex : FVec F S256x1024 .f32) (sm : FVec F S256 .f32) : FVec F S256x1024 .bf16 :=
  truncf .bf16
    (divf ex (broadcastTo S256x1024 (shapeCast S256x1 sm shapeCasts_S256_S256x1) broadcasts_S256x1_S256x1024))
    bitsLt_bf16_f32

/-- The weights applied to the values. -/
def tileOut (a : FVec F S256x1024 .bf16) (wv : Vec F S1024x1024 .bf16) : FVec F S256x1024 .f32 :=
  matmul dot_S256x1024_S1024x1024_S256x1024_1_0_0_1_n_n none a wv (constant S256x1024 .f32 0x00000000#32)

/-- A whole tile of the output. -/
def tile (wq : Vec F S256x1024 .bf16) (wk : Vec F S1024x1024 .bf16) (nq : Vec F S1024x256 .bf16)
    (nk : Vec F S1024x1024 .bf16) (wv : Vec F S1024x1024 .bf16) : FVec F S256x1024 .f32 :=
  tileOut (tileSoft (tileExp (tileScore wq wk nq nk)) (tileSum (tileExp (tileScore wq wk nq nk)))) wv

/-! ## The body's four tiles are this term -/

theorem tile0_eq (a : Vec F S256x1024 .bf16) (b : Vec F S1024x1024 .bf16) (c : Vec F S1024x256 .bf16)
    (d : Vec F S1024x1024 .bf16) (v : Vec F S1024x1024 .bf16) :
    k0_pay13 (k0_pay11 a b c d) (k0_pay12 a b c d) v
      = shapeCast S1x256x1024 (tile a b c d v) shapeCasts_S256x1024_S1x256x1024 := rfl

theorem tile1_eq (a : Vec F S256x1024 .bf16) (b : Vec F S1024x1024 .bf16) (c : Vec F S1024x256 .bf16)
    (d : Vec F S1024x1024 .bf16) (v : Vec F S1024x1024 .bf16) :
    k0_pay15 (k0_pay14 a b c d) v = shapeCast S1x256x1024 (tile a b c d v) shapeCasts_S256x1024_S1x256x1024 := rfl

theorem tile2_eq (a : Vec F S256x1024 .bf16) (b : Vec F S1024x1024 .bf16) (c : Vec F S1024x256 .bf16)
    (d : Vec F S1024x1024 .bf16) (v : Vec F S1024x1024 .bf16) :
    k0_pay17 (k0_pay16 a b c d v) = shapeCast S1x256x1024 (tile a b c d v) shapeCasts_S256x1024_S1x256x1024 := rfl

theorem tile3_eq (a : Vec F S256x1024 .bf16) (b : Vec F S1024x1024 .bf16) (c : Vec F S1024x256 .bf16)
    (d : Vec F S1024x1024 .bf16) (v : Vec F S1024x1024 .bf16) :
    k0_pay1 (k0_pay18 a b c d v) = shapeCast S1x256x1024 (tile a b c d v) shapeCasts_S256x1024_S1x256x1024 := rfl

/-! ## A tile read at an index, on the extended reals -/

/-- The blended score of the tile's row `r` against key row `t`. -/
theorem tileScore_at (wq : Vec Ideal S256x1024 .bf16) (wk : Vec Ideal S1024x1024 .bf16) (nq : Vec Ideal S1024x256 .bf16)
    (nk : Vec Ideal S1024x1024 .bf16) (r : Fin 256) (t : Fin 1024) :
    tileScore wq wk nq nk (ix2 r t)
      = ((∑ k : Fin 1024, wq (ix2 r k) * wk (ix2 t k)) * inv32 + ∑ u : Fin 1024, nq (ix2 u r) * nk (ix2 u t)) * half := by
  unfold tileScore
  rw [mulf_apply, addf_apply, mulf_apply, mm_rows_rows, mm_cols_cols]
  rfl

/-- The row maximum the tile subtracts, at row `r`. -/
theorem tileMax_at (sc : FVec Ideal S256x1024 .f32) (r : Fin 256) :
    multiReduction .maximumf [1] S256 sc 0xFF800000#32 reduces_S256x1024_S256 (.inl rfl) rfl (ix1 r)
      = (Finset.univ : Finset (Fin 1024)).fold max negInf (fun t => sc (ix2 r t)) :=
  Cert.LibKeepdims.max_last2_apply sc 0xFF800000#32 reduces_S256x1024_S256 (.inl rfl) rfl r

theorem tileExp_at (sc : FVec Ideal S256x1024 .f32) (r : Fin 256) (t : Fin 1024) :
    tileExp sc (ix2 r t) = expRow (fun t' => sc (ix2 r t')) t := by
  unfold tileExp
  rw [Cert.LibKeepdims.exp_apply, subf_apply, Cert.LibColumn.broadcastTo_a1_ab_apply,
    Cert.LibColumn.shapeCast_a_a1_apply, maximumf_apply, tileMax_at]
  rfl

theorem tileSum_at (ex : FVec Ideal S256x1024 .f32) (r : Fin 256) :
    tileSum ex (ix1 r) = ∑ t : Fin 1024, ex (ix2 r t) :=
  Cert.LibKeepdims.sum_last2_apply ex 0x00000000#32 reduces_S256x1024_S256 (.inl rfl) rfl r

theorem tileSoft_at (ex : FVec Ideal S256x1024 .f32) (sm : FVec Ideal S256 .f32) (r : Fin 256) (t : Fin 1024) :
    tileSoft ex sm (ix2 r t) = Ideal.div (ex (ix2 r t)) (sm (ix1 r)) := by
  unfold tileSoft
  rw [truncf_apply, divf_apply, Cert.LibColumn.broadcastTo_a1_ab_apply, Cert.LibColumn.shapeCast_a_a1_apply]

/-- A tile at `(r, e)`: the softmax of the tile's score row `r`, applied to column `e` of the values. -/
theorem tile_at (wq : Vec Ideal S256x1024 .bf16) (wk : Vec Ideal S1024x1024 .bf16) (nq : Vec Ideal S1024x256 .bf16)
    (nk : Vec Ideal S1024x1024 .bf16) (wv : Vec Ideal S1024x1024 .bf16) (r : Fin 256) (e : Fin 1024) :
    tile wq wk nq nk wv (ix2 r e)
      = ∑ t : Fin 1024, softRow (fun t' => tileScore wq wk nq nk (ix2 r t')) t * wv (ix2 t e) := by
  unfold tile tileOut
  rw [mm_tile_cols]
  refine Finset.sum_congr rfl fun t _ => ?_
  rw [tileSoft_at, tileSum_at, tileExp_at]
  refine congrArg (· * wv (ix2 t e)) ?_
  unfold softRow
  refine congrArg (Ideal.div _) (Finset.sum_congr rfl fun t' _ => ?_)
  rw [tileExp_at]

end Cert.Attn.Kern

end
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.KernScratch.lean ====
/-
  What the body stages in its five scratch buffers, read at an index on the extended reals. From the batch entry's
  block of tokens `x` and one slab `w` of the weights: the projection (queries, keys, values — the round to bf16 is the
  identity here), and the projection with each column scaled to unit length along the sequence axis.
-/
import proofs.«129384_j57990648430953_2_alg».proof.Proof.Gen.KernelIdeal.Skeleton
import proofs.«129384_j57990648430953_2_alg».proof.Proof.KernMatmul
import proofs.«129384_j57990648430953_2_alg».proof.Proof.Spec
import proofs.«129384_j57990648430953_2_alg».proof.Proof.LibFirstAxis
import Idealize.ShloMosaic.Lib.Pipeline.Value
import Idealize.ShloMosaic.Lib.ValueLayout

noncomputable section

namespace Cert.Attn.Kern

open Cert.KernelIdeal Cert.KernelIdeal.Gen
open Idealize.ShloMosaic Idealize.ShloMosaic.ValueIdx
open Cert.Attn

/-- A [1, 1024, 1024] block as a matrix. -/
def mat3 (v : Vec Ideal S1x1024x1024 .bf16) : Mat := fun s d => v (ix3 (0 : Fin 1) s d)

/-- The block with its unit axis dropped. -/
theorem pay2_at (x : Vec Ideal S1x1024x1024 .bf16) (s d : Fin 1024) : k0_pay2 x (ix2 s d) = mat3 x s d := by
  unfold k0_pay2
  exact shapeCast_1ab_ab_apply x shapeCasts_S1x1024x1024_S1024x1024 s d

/-- The projection of the block by a weight slab, before the round to bf16. -/
theorem pay4_at (x w : Vec Ideal S1x1024x1024 .bf16) (s e : Fin 1024) :
    k0_pay4 x w (ix2 s e) = proj (mat3 x) (mat3 w) s e := by
  show matmul dot_S1024x1024_S1024x1024_S1024x1024_1_0_0_1_n_n none (k0_pay2 x)
    (shapeCast S1024x1024 w shapeCasts_S1x1024x1024_S1024x1024) (constant S1024x1024 .f32 0x00000000#32) (ix2 s e) = _
  rw [mm_rows_cols]
  refine Finset.sum_congr rfl fun k _ => ?_
  rw [pay2_at, shapeCast_1ab_ab_apply]
  rfl

theorem pay7_at (x w : Vec Ideal S1x1024x1024 .bf16) (s e : Fin 1024) :
    k0_pay7 x w (ix2 s e) = proj (mat3 x) (mat3 w) s e := by
  show matmul dot_S1024x1024_S1024x1024_S1024x1024_1_0_0_1_n_n none (k0_pay2 x)
    (shapeCast S1024x1024 w shapeCasts_S1x1024x1024_S1024x1024) (constant S1024x1024 .f32 0x00000000#32) (ix2 s e) = _
  rw [mm_rows_cols]
  refine Finset.sum_congr rfl fun k _ => ?_
  rw [pay2_at, shapeCast_1ab_ab_apply]
  rfl

/-- The queries, as staged. -/
theorem pay5_at (x w : Vec Ideal S1x1024x1024 .bf16) (s e : Fin 1024) :
    k0_pay5 x w (ix2 s e) = proj (mat3 x) (mat3 w) s e := by
  show shapeCast S1024x1024 (truncf .bf16 (k0_pay4 x w) bitsLt_bf16_f32) shapeCasts_S1024x1024_S1024x1024 (ix2 s e) = _
  rw [shapeCast_self, truncf_apply, pay4_at]

/-- The keys, as staged. -/
theorem pay9_at (x w : Vec Ideal S1x1024x1024 .bf16) (s e : Fin 1024) :
    k0_pay9 (k0_pay8 x w) (ix2 s e) = proj (mat3 x) (mat3 w) s e := by
  show shapeCast S1024x1024 (truncf .bf16 (k0_pay7 x w) bitsLt_bf16_f32) shapeCasts_S1024x1024_S1024x1024 (ix2 s e) = _
  rw [shapeCast_self, truncf_apply, pay7_at]

/-- The values, as staged. -/
theorem pay3_at (x w : Vec Ideal S1x1024x1024 .bf16) (s e : Fin 1024) :
    k0_pay3 x w (ix2 s e) = proj (mat3 x) (mat3 w) s e := by
  show shapeCast S1024x1024 (truncf .bf16
      (matmul dot_S1024x1024_S1024x1024_S1024x1024_1_0_0_1_n_n none (k0_pay2 x)
        (shapeCast S1024x1024 w shapeCasts_S1x1024x1024_S1024x1024) (constant S1024x1024 .f32 0x00000000#32))
      bitsLt_bf16_f32) shapeCasts_S1024x1024_S1024x1024 (ix2 s e) = _
  rw [shapeCast_self, truncf_apply, mm_rows_cols]
  refine Finset.sum_congr rfl fun k _ => ?_
  rw [pay2_at, shapeCast_1ab_ab_apply]
  rfl

/-- A [1024, 1024] array of extended reals as a matrix. -/
def mat2 (p : FVec Ideal S1024x1024 .f32) : Mat := fun s e => p (ix2 s e)

/-- A projection with its columns scaled to unit length along the sequence axis, the term both normalizations
    compute from the projection `p`. -/
def unitCols (p : FVec Ideal S1024x1024 .f32) : FVec Ideal S1024x1024 .bf16 :=
  shapeCast S1024x1024
    (truncf .bf16
      (mulf p
        (broadcastTo S1024x1024
          (rsqrt
            (maximumf
              (shapeCast S1x1024
                (multiReduction .add [0] S1024 (mulf p p) 0x00000000#32 reduces_S1024x1024_S1024 (.inl rfl) rfl)
                shapeCasts_S1024_S1x1024)
              (broadcast S1x1024 (Scalar.ofBits .f32 0x2B8CBCCC#32))))
          broadcasts_S1x1024_S1024x1024))
      bitsLt_bf16_f32)
    shapeCasts_S1024x1024_S1024x1024

theorem unitCols_at (p : FVec Ideal S1024x1024 .f32) (s e : Fin 1024) :
    unitCols p (ix2 s e) = colUnit (mat2 p) s e := by
  unfold unitCols
  rw [shapeCast_self, truncf_apply, mulf_apply, broadcastTo_1b_ab_apply]
  show p (ix2 s e) * Ideal.rsqrt (max
      (shapeCast S1x1024 (multiReduction .add [0] S1024 (mulf p p) 0x00000000#32 reduces_S1024x1024_S1024 (.inl rfl) rfl)
        shapeCasts_S1024_S1x1024 (ix2 (0 : Fin 1) e))
      eps) = _
  rw [shapeCast_a_1a_apply]
  exact congrArg (fun z => p (ix2 s e) * Ideal.rsqrt (max z eps))
    (Cert.LibFirstAxis.sum_first2_apply (mulf p p) 0x00000000#32 reduces_S1024x1024_S1024 (.inl rfl) rfl e)

/-- The unit-column queries, as staged. -/
theorem pay6_at (x w : Vec Ideal S1x1024x1024 .bf16) (s e : Fin 1024) :
    k0_pay6 x w (ix2 s e) = colUnit (proj (mat3 x) (mat3 w)) s e := by
  show unitCols (k0_pay4 x w) (ix2 s e) = _
  rw [unitCols_at]
  have hm : mat2 (k0_pay4 x w) = proj (mat3 x) (mat3 w) := funext fun s' => funext fun e' => pay4_at x w s' e'
  rw [hm]

/-- The unit-column keys, as staged. -/
theorem pay10_at (x w : Vec Ideal S1x1024x1024 .bf16) (s e : Fin 1024) :
    k0_pay10 (k0_pay7 x w) (ix2 s e) = colUnit (proj (mat3 x) (mat3 w)) s e := by
  show unitCols (k0_pay7 x w) (ix2 s e) = _
  rw [unitCols_at]
  have hm : mat2 (k0_pay7 x w) = proj (mat3 x) (mat3 w) := funext fun s' => funext fun e' => pay7_at x w s' e'
  rw [hm]

end Cert.Attn.Kern

end
-- ==== Proof.KernBlock.lean ====
/-
  What the body leaves in the output's staging block, as one function of its two input blocks: at row `s` and
  feature `e` the attention output `head` of the batch entry's tokens and the three weight slabs. The block is written
  as four tiles of 256 rows; a tile's loads read back what the same body staged in scratch — the tile's rows of the
  queries, its columns of the unit-column queries, and the whole keys, unit-column keys and values — so every tile is
  the restriction of that one function to its rows.
-/
import proofs.«129384_j57990648430953_2_alg».proof.Proof.Gen.KernelIdeal.Frame
import proofs.«129384_j57990648430953_2_alg».proof.Proof.KernTile
import proofs.«129384_j57990648430953_2_alg».proof.Proof.KernScratch
import Idealize.ShloMosaic.Lib.Pipeline.Value
import Idealize.ShloMosaic.Lib.Tactic

set_option maxRecDepth 16384

noncomputable section

namespace Cert.Attn.Kern

open Cert.KernelIdeal Cert.KernelIdeal.Gen
open Idealize.ShloMosaic Idealize.ShloMosaic.TcCoe Idealize.ShloMosaic.ValueIdx Idealize.SL.Sem
open Cert.Attn

theorem hz2 : (![0, 0] : Fin 2 → Nat) = fun _ => 0 := funext fun a => by fin_cases a <;> rfl
theorem hz3 : (![0, 0, 0] : Fin 3 → Nat) = fun _ => 0 := funext fun a => by fin_cases a <;> rfl

/-- A load, through any rectangle, of what ONE store of the whole buffer left reads the stored value there. -/
theorem readCov_whole {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon', View.canon_unit_zero h]

/-- A matrix as a [1, 1024, 1024] block. -/
def blockOf (M : Mat) : Vec Ideal S1x1024x1024 .f32 := fun y => M (y 1) (y 2)

/-- Slab `j` of the weights' block, as loaded. -/
theorem mat3_slab (x1 : Vec Ideal S3x1024x1024 .bf16) (j : Fin 3)
    (inb : ∀ a, (![j.val, 0, 0] : Fin 3 → Nat) a + S1x1024x1024.size a ≤ S3x1024x1024.size a) :
    mat3 (View.ld (Val := Elt Ideal) (e' := .bf16) x1 (Rect.unit (s := S3x1024x1024) ![j.val, 0, 0] S1x1024x1024.size inb)) = slab3 x1 j := by
  funext d e
  show x1 ((Rect.unit (s := S3x1024x1024) ![j.val, 0, 0] S1x1024x1024.size inb).idx (ix3 (0 : Fin 1) d e)) = x1 (ix3 j d e)
  refine congrArg x1 (funext fun a => Fin.ext ?_)
  match a with
  | ⟨0, _⟩ => show j.val + 1 * 0 = j.val; omega
  | ⟨1, _⟩ => show 0 + 1 * d.val = d.val; omega
  | ⟨2, _⟩ => show 0 + 1 * e.val = e.val; omega

/-- 256 rows of a staged matrix from row `o`, read at `(r, k)`. -/
theorem ld_rows (P : Vec Ideal S1024x1024 .bf16) (o : ℕ)
    (inb : ∀ a, (![o, 0] : Fin 2 → Nat) a + S256x1024.size a ≤ S1024x1024.size a) (r : Fin 256) (k : Fin 1024)
    (ho : o + r.val < 1024) :
    View.ld (Val := Elt Ideal) (e' := .bf16) P (Rect.unit (s := S1024x1024) ![o, 0] S256x1024.size inb) (ix2 r k)
      = P (ix2 (⟨o + r.val, ho⟩ : Fin 1024) k) := by
  show P ((Rect.unit (s := S1024x1024) ![o, 0] S256x1024.size inb).idx (ix2 r k)) = _
  refine congrArg P (funext fun a => Fin.ext ?_)
  match a with
  | ⟨0, _⟩ => show o + 1 * r.val = o + r.val; omega
  | ⟨1, _⟩ => show 0 + 1 * k.val = k.val; omega

/-- 256 columns of a staged matrix from column `o`, read at `(u, r)`. -/
theorem ld_cols (P : Vec Ideal S1024x1024 .bf16) (o : ℕ)
    (inb : ∀ a, (![0, o] : Fin 2 → Nat) a + S1024x256.size a ≤ S1024x1024.size a) (u : Fin 1024) (r : Fin 256)
    (ho : o + r.val < 1024) :
    View.ld (Val := Elt Ideal) (e' := .bf16) P (Rect.unit (s := S1024x1024) ![0, o] S1024x256.size inb) (ix2 u r)
      = P (ix2 u (⟨o + r.val, ho⟩ : Fin 1024)) := by
  show P ((Rect.unit (s := S1024x1024) ![0, o] S1024x256.size inb).idx (ix2 u r)) = _
  refine congrArg P (funext fun a => Fin.ext ?_)
  match a with
  | ⟨0, _⟩ => show 0 + 1 * u.val = u.val; omega
  | ⟨1, _⟩ => show o + 1 * r.val = o + r.val; omega

/-- The tile that starts at row `o`, computed from the staged scratch contents, is rows `o … o + 255` of `head`. -/
theorem tile_rows (x wq wk wv : Vec Ideal S1x1024x1024 .bf16) (o : ℕ)
    (inbQ : ∀ a, (![o, 0] : Fin 2 → Nat) a + S256x1024.size a ≤ S1024x1024.size a)
    (inbN : ∀ a, (![0, o] : Fin 2 → Nat) a + S1024x256.size a ≤ S1024x1024.size a)
    (r : Fin 256) (e : Fin 1024) (ho : o + r.val < 1024) :
    tile (View.ld (Val := Elt Ideal) (e' := .bf16) (k0_pay5 x wq) (Rect.unit (s := S1024x1024) ![o, 0] S256x1024.size inbQ)) (k0_pay9 (k0_pay8 x wk))
        (View.ld (Val := Elt Ideal) (e' := .bf16) (k0_pay6 x wq) (Rect.unit (s := S1024x1024) ![0, o] S1024x256.size inbN)) (k0_pay10 (k0_pay7 x wk)) (k0_pay3 x wv) (ix2 r e)
      = head (mat3 x) (mat3 wq) (mat3 wk) (mat3 wv) (⟨o + r.val, ho⟩ : Fin 1024) e := by
  rw [tile_at]
  unfold head mix
  refine Finset.sum_congr rfl fun t _ => ?_
  rw [pay3_at]
  refine congrArg (· * proj (mat3 x) (mat3 wv) t e) ?_
  show softRow _ t = softRow (score (proj (mat3 x) (mat3 wq)) (proj (mat3 x) (mat3 wk)) ⟨o + r.val, ho⟩) t
  refine congrArg (fun f => softRow f t) (funext fun t' => ?_)
  rw [tileScore_at]
  unfold score dotScore cosScore
  have h1 : (∑ k : Fin 1024, View.ld (Val := Elt Ideal) (e' := .bf16) (k0_pay5 x wq) (Rect.unit (s := S1024x1024) ![o, 0] S256x1024.size inbQ) (ix2 r k) * k0_pay9 (k0_pay8 x wk) (ix2 t' k))
      = ∑ k : Fin 1024, proj (mat3 x) (mat3 wq) ⟨o + r.val, ho⟩ k * proj (mat3 x) (mat3 wk) t' k :=
    Finset.sum_congr rfl fun k _ => by rw [ld_rows _ o inbQ r k ho, pay5_at, pay9_at]
  have h2 : (∑ u : Fin 1024, View.ld (Val := Elt Ideal) (e' := .bf16) (k0_pay6 x wq) (Rect.unit (s := S1024x1024) ![0, o] S1024x256.size inbN) (ix2 u r) * k0_pay10 (k0_pay7 x wk) (ix2 u t'))
      = ∑ u : Fin 1024, colUnit (proj (mat3 x) (mat3 wq)) u ⟨o + r.val, ho⟩ * colUnit (proj (mat3 x) (mat3 wk)) u t' :=
    Finset.sum_congr rfl fun u _ => by rw [ld_cols _ o inbN u r ho, pay6_at, pay10_at]
  rw [h1, h2]

/-- One stored tile — a [1, 256, 1024] piece at row offset `o` whose payload is the tile cast to that shape — is the
    restriction of the block function to its rectangle. -/
theorem piece_rows (x wq wk wv : Vec Ideal S1x1024x1024 .bf16) (o : ℕ) (hle : o + 256 ≤ 1024)
    {inb3 : ∀ a, (![0, o, 0] : Fin 3 → Nat) a + (![1, 256, 1024] : Fin 3 → Nat) a ≤ S1x1024x1024.size a}
    {inbQ : ∀ a, (![o, 0] : Fin 2 → Nat) a + S256x1024.size a ≤ S1024x1024.size a}
    {inbN : ∀ a, (![0, o] : Fin 2 → Nat) a + S1024x256.size a ≤ S1024x1024.size a}
    (y : (Rect.unit (s := S1x1024x1024) ![0, o, 0] ![1, 256, 1024] inb3).shape.Idx) :
    shapeCast S1x256x1024
        (tile (View.ld (Val := Elt Ideal) (e' := .bf16) (k0_pay5 x wq) (Rect.unit (s := S1024x1024) ![o, 0] S256x1024.size inbQ)) (k0_pay9 (k0_pay8 x wk))
          (View.ld (Val := Elt Ideal) (e' := .bf16) (k0_pay6 x wq) (Rect.unit (s := S1024x1024) ![0, o] S1024x256.size inbN)) (k0_pay10 (k0_pay7 x wk)) (k0_pay3 x wv))
        shapeCasts_S256x1024_S1x256x1024 y
      = blockOf (head (mat3 x) (mat3 wq) (mat3 wk) (mat3 wv)) ((Rect.unit (s := S1x1024x1024) ![0, o, 0] ![1, 256, 1024] inb3).emb y) := by
  obtain ⟨u, r, e, rfl⟩ : ∃ (u : Fin 1) (r : Fin 256) (e : Fin 1024), y = ix3 u r e := ⟨y 0, y 1, y 2, eq_ix3 y⟩
  have ho : o + r.val < 1024 := by have := r.isLt; omega
  rw [shapeCast_ab_1ab_apply, tile_rows x wq wk wv o inbQ inbN r e ho]
  unfold blockOf
  refine congrArg₂ (head (mat3 x) (mat3 wq) (mat3 wk) (mat3 wv)) (Fin.ext ?_) (Fin.ext ?_)
  · show o + r.val = o + 1 * r.val; omega
  · show e.val = 0 + 1 * e.val; omega

/-- The output's staging block after the body, as one function of the two input blocks. -/
theorem block_eq (c : Dev nD) (i : grid0.Coords) (arg1 : Memref sig .tc .vmem S1x1024x1024 .bf16) (harg1 : arg1.IsWhole) (arg2 : Memref sig .tc .vmem S3x1024x1024 .bf16) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 : Vec Ideal S1x1024x1024 .bf16) (x1 : Vec Ideal S3x1024x1024 .bf16) :
    out0_A_2 (F := Ideal) c i arg1 harg1 arg2 harg2 arg3 harg3 arg4 harg4 arg5 harg5 arg6 harg6 arg7 harg7 arg8 harg8 x0 x1
      = blockOf (head (mat3 x0) (slab3 x1 0) (slab3 x1 1) (slab3 x1 2)) := by
  have hcov := cover0_A_2 (F := Ideal) c i arg1 harg1 arg2 harg2 arg3 harg3 arg4 harg4 arg5 harg5 arg6 harg6 arg7 harg7 arg8 harg8 x0 x1
  rw [← mat3_slab x1 0 inb_S3x1024x1024_S1x1024x1024_0_0_0, ← mat3_slab x1 1 inb_S3x1024x1024_S1x1024x1024_1_0_0,
    ← mat3_slab x1 2 inb_S3x1024x1024_S1x1024x1024_2_0_0]
  unfold out0_A_2
  rw [View.read_writes_eq_canon _ _ _ hcov]
  funext y
  refine View.canon_apply_of_pieces _ _ ?_ y (hcov y)
  unfold kernelRun0_A
  dsimp only
  sl_unfold_words
  simp only [View.readAt_eq_ld, harg1.read_unread, harg2.read_unread, View.ld_unit_zero (S := S1x1024x1024) hz3,
    readCov_whole (S := S1024x1024) _ hz2, View.ld_unit_zero (S := S1024x1024) hz2, tile0_eq, tile1_eq, tile2_eq, tile3_eq]
  refine List.forall_mem_cons.2 ⟨fun x => ?_, List.forall_mem_cons.2 ⟨fun x => ?_, List.forall_mem_cons.2
    ⟨fun x => ?_, List.forall_mem_cons.2 ⟨fun x => ?_, fun _ h => absurd h List.not_mem_nil⟩⟩⟩⟩
  · exact piece_rows x0 _ _ _ 768 (by norm_num) (inb3 := by decide) x
  · exact piece_rows x0 _ _ _ 512 (by norm_num) (inb3 := by decide) x
  · exact piece_rows x0 _ _ _ 256 (by norm_num) (inb3 := by decide) x
  · exact piece_rows x0 _ _ _ 0 (by norm_num) (inb3 := by decide) x

end Cert.Attn.Kern

end
-- ==== Proof.KernArray.lean ====
/-
  From the blocks to the whole result array. The grid has one point per batch entry; point `t` reads entry `t` of the
  tokens (already rounded to bf16 on the host, which is the identity here) and all three weight slabs, and writes back
  entry `t` of the result. What it writes is block `t` of the attention function of the two argument arrays, the
  eight blocks cover the result array, so after the run the result array is that function.
-/
import proofs.«129384_j57990648430953_2_alg».proof.Proof.Gen.KernelIdeal.Value
import proofs.«129384_j57990648430953_2_alg».proof.Proof.KernBlock
import Idealize.ShloMosaic.Lib.Pipeline.Value
import Idealize.ShloMosaic.Lib.StableHlo.Run

set_option maxRecDepth 16384

noncomputable section

namespace Cert.Attn.Kern

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ) (ρ : Dev nD → PrngReg)

/-- The tokens as the region finds them: the host's round to bf16 of the first argument, which on the extended reals is
    the argument itself. -/
theorem V_tokens (c : Dev nD) :
    (V m c main_v0 : S8x1024x1024.Idx → EReal) = m ((c : Thread nD τ).loc main_arg0) := by
  dsimp only [Gen.V, Gen.hostOps0]; after_results; rfl

/-- The weights as the region finds them: likewise the second argument. -/
theorem V_weights (c : Dev nD) :
    (V m c main_v1 : S3x1024x1024.Idx → EReal) = m ((c : Thread nD τ).loc main_arg1) := by
  dsimp only [Gen.V, Gen.hostOps0]; after_results; rfl

/-- The printed index maps, decided over the grid: the tokens' and the result's block index is the point on the batch
    axis, the weights' block never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch entry a grid point works on. -/
def entry (t : Fin cfg0.N) : Fin 8 := ⟨t.val, by have h := t.isLt; have hN : cfg0.N = 8 := N_0; omega⟩

/-- The tokens' block at point `t` is batch entry `t` of the first argument. -/
theorem tokens_block (c : Dev nD) (t : Fin cfg0.N) :
    mat3 (iblk m c 0 t) = slab8 (m ((c : Thread nD τ).loc main_arg0)) (entry t) := by
  obtain ⟨e0, e1, e2, -⟩ := idx_facts t
  funext s d
  show (V m c main_v0 : S8x1024x1024.Idx → EReal) (((cfg0.win 0).blk t).view.emb (ix3 (0 : Fin 1) s d)) = _
  rw [V_tokens]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 1024 + 1 * d.val = d.val; omega

/-- The weights' block at every point is the whole second argument. -/
theorem weights_block (c : Dev nD) (t : Fin cfg0.N) (j : Fin 3) :
    slab3 (iblk m c 1 t) j = slab3 (m ((c : Thread nD τ).loc main_arg1)) j := by
  obtain ⟨-, -, -, e0, e1, e2, -⟩ := idx_facts t
  funext d e
  show (V m c main_v1 : S3x1024x1024.Idx → EReal) (((cfg0.win 1).blk t).view.emb (ix3 j d e)) = _
  rw [V_weights]
  refine congrArg (m ((c : Thread nD τ).loc main_arg1)) (funext fun a => Fin.ext ?_)
  match a with
  | ⟨0, _⟩ => show win0_1.index t (0 : Fin 3) * 3 + 1 * j.val = j.val; omega
  | ⟨1, _⟩ => show win0_1.index t (1 : Fin 3) * 1024 + 1 * d.val = d.val; omega
  | ⟨2, _⟩ => show win0_1.index t (2 : Fin 3) * 1024 + 1 * e.val = e.val; omega

/-- What point `t` writes back is block `t` of the attention function of the two argument arrays. -/
theorem flushed_eq (c : Dev nD) (t : Fin cfg0.N) :
    (dats m 0 c).flushed 2 t
      = ((cfg0.win 2).blk t).view.read (Elt Ideal)
          (attention (m ((c : Thread nD τ).loc main_arg0)) (m ((c : Thread nD τ).loc main_arg1))) := by
  rw [flushed2_A, block_eq, tokens_block, weights_block, weights_block, weights_block]
  obtain ⟨-, -, -, -, -, -, e0, e1, e2⟩ := idx_facts t
  funext y
  obtain ⟨u, s, e, rfl⟩ : ∃ (u : Fin 1) (s e : Fin 1024), y = ix3 u s e := ⟨y 0, y 1, y 2, eq_ix3 y⟩
  show head _ _ _ _ s e
    = attention (m ((c : Thread nD τ).loc main_arg0)) (m ((c : Thread nD τ).loc main_arg1))
        (((cfg0.win 2).blk t).view.emb (ix3 u s e))
  have hemb : ((cfg0.win 2).blk t).view.emb (ix3 u s e) = ix3 (entry t) s e := by
    funext a; apply Fin.ext
    have hu : u.val = 0 := by omega
    match a with
    | ⟨0, _⟩ => show win0_2.index t (0 : Fin 3) * 1 + 1 * u.val = t.val; omega
    | ⟨1, _⟩ => show win0_2.index t (1 : Fin 3) * 1024 + 1 * s.val = s.val; omega
    | ⟨2, _⟩ => show win0_2.index t (2 : Fin 3) * 1024 + 1 * e.val = e.val; omega
  rw [hemb, attention_ix3]

/-- An index of the result array is in point `t`'s block iff each coordinate is in the block's range on its axis. -/
theorem mem_blk (t : Fin cfg0.N) (i : S8x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- Every index of the result array is in the block of the point of its batch entry. -/
theorem cover (i : S8x1024x1024.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 1024 := (i 1).isLt
  have h2 : (i 2).val < 1024 := (i 2).isLt
  let t : Fin cfg0.N := ⟨(i 0).val, by rw [hN]; exact h0⟩
  obtain ⟨-, -, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run. -/
theorem final (c : Dev nD) :
    (dats m 0 c).arrAt 2 cfg0.N
      = attention (m ((c : Thread nD τ).loc main_arg0)) (m ((c : Thread nD τ).loc main_arg1)) :=
  (dats m 0 c).arrAt_eq_of_cover 2 _ (fun t _ => flushed_eq m c t) cover

/-- The kernel's run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v2)
          = attention (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Attn.Kern

end
-- ==== Proof.lean ====
/-
  Single-head attention with blended scores — the scaled dot product of queries and keys plus their cosine along the
  sequence axis, halved, then a softmax over keys applied to the values — computed by a kernel that takes one batch
  entry per grid point, stages the three projections and the two unit-column forms in scratch and writes the output
  256 query rows at a time, against the plain formula over the whole arrays.

  On the extended reals both programs compute the one function `Cert.Attn.attention` of the two argument arrays
  (Proof/Spec.lean). The reference reaches it stage by stage (Proof/RefValue.lean); the kernel's block at a grid point is
  that function's block (Proof/KernBlock.lean, over Proof/KernTile.lean, Proof/KernScratch.lean, Proof/KernMatmul.lean), and
  the eight blocks fill the result array (Proof/KernArray.lean). The only step that is not a rearrangement of the same
  operations is the dot-product scale: the reference divides by the square root of 1024, the kernel multiplies by 1/32
  (Proof/Consts.lean); no finiteness of the inputs is used. The idealization rewrote nothing, so the kernel is its own
  idealization; each program's frame is its generated run.
-/
import proofs.«129384_j57990648430953_2_alg».proof.Defs
import proofs.«129384_j57990648430953_2_alg».proof.Proof.Gen.Kernel
import proofs.«129384_j57990648430953_2_alg».proof.Proof.Gen.Kernel.Frame
import proofs.«129384_j57990648430953_2_alg».proof.Proof.Gen.KernelIdeal
import proofs.«129384_j57990648430953_2_alg».proof.Proof.Gen.KernelIdeal.Frame
import proofs.«129384_j57990648430953_2_alg».proof.Proof.Gen.ReferenceIdeal
import proofs.«129384_j57990648430953_2_alg».proof.Proof.Gen.Pre_finite_inputs
import proofs.«129384_j57990648430953_2_alg».proof.Proof.Gen.KernelIdeal.Value
import proofs.«129384_j57990648430953_2_alg».proof.Proof.Gen.ReferenceIdeal.Run
import proofs.«129384_j57990648430953_2_alg».proof.Proof.Gen.ReferenceIdeal.Read
import proofs.«129384_j57990648430953_2_alg».proof.Proof.RefValue
import proofs.«129384_j57990648430953_2_alg».proof.Proof.KernArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both programs end with the result array at the attention function of
    those arguments. -/
theorem algebraic : Cert.algebraic_KernelIdeal_ReferenceIdeal := by
  intro m ρ m' ρ' _ hagree
  refine ⟨fun c => Cert.Attn.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Attn.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.Attn.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
